-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x1024 : Shape := ⟨2, ![512, 1024]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x512 .f32) (main_arg1 : FVec F S8x2048x512 .f32) (main_arg2 : FVec F S512x1024 .f32) (main_arg3 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x512 : Shape := ⟨3, ![8, 2048, 512]⟩
abbrev S512x1024 : Shape := ⟨2, ![512, 1024]⟩
abbrev S512 : Shape := ⟨1, ![512]⟩
abbrev S512x512 : Shape := ⟨2, ![512, 512]⟩
abbrev S8x2048x2048 : Shape := ⟨3, ![8, 2048, 2048]⟩
abbrev S1x512x512 : Shape := ⟨3, ![1, 512, 512]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S512x1 : Shape := ⟨2, ![512, 1]⟩
abbrev S1x512 : Shape := ⟨2, ![1, 512]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S8x2048x512, .bf16⟩
  | .hbm, ⟨9, _⟩ => ⟨S8x2048x512, .bf16⟩
  | .hbm, ⟨10, _⟩ => ⟨S512x512, .bf16⟩
  | .hbm, ⟨11, _⟩ => ⟨S512x512, .bf16⟩
  | .hbm, ⟨12, _⟩ => ⟨S8x2048x2048, .f32⟩
  | .hbm, ⟨13, _⟩ => ⟨S8x2048x512, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S1x512x2048, .f32⟩
  | .local _ .vmem, ⟨8, _⟩ => ⟨S1x512x2048, .f32⟩
  | .local _ .vmem, ⟨9, _⟩ => ⟨S1x512x512, .f32⟩
  | .local _ .vmem, ⟨10, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .bf16 = 32 ∨ (Rect.block (s := S8x2048x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .bf16 = 32 ∨ (Rect.block (s := S8x2048x512) S1x2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S8x2048x512.size a
  hwx0_6 : ∀ i : grid0.Coords, EltTy.bits .f32 = 32 ∨ (Rect.block (s := S8x2048x512) S1x512x512.size (cc0_transform_6 i) (hinb0_6 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v4) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x1024 : Shape := ⟨2, ![512, 1024]⟩
abbrev S512 : Shape := ⟨1, ![512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x1024 : Shape := ⟨3, ![8, 2048, 1024]⟩
abbrev S1x1x512 : Shape := ⟨3, ![1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x1024, .f32⟩
  | .hbm, ⟨3, _⟩ => ⟨S512, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | .hbm, ⟨20, _⟩ => ⟨S8x2048x1024, .f32⟩
  | .hbm, ⟨21, _⟩ => ⟨S8x2048x512, .f32⟩
  | .hbm, ⟨22, _⟩ => ⟨S1x1x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x512_S8x2048x512_S8x2048x1024_d2 : Shape.Concatenates [S8x2048x512, S8x2048x512] S8x2048x1024 2
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x1024_S512x1024_S8x2048x512_2_1_01_0_n_n_wf : DotDims.WF S8x2048x1024 S512x1024 S8x2048x512 [2] [1] [0, 1] [0] [] []

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf

class Facts : Prop extends Facts₀ where

variable [Facts]
-- ==== Proof.Attention.lean ====
/-
  Softmax attention of one query row against a table of keys, and the output layer after it, on the extended reals.

  A query row `q : Fin 512 → EReal` is scored against each of 2048 key rows `k i` by the inner product
  `score q k i = Σ_d q d * k i d`. The scores are shifted by their maximum `top` (the fold of `max` from −∞),
  exponentiated (`num`), and divided by the sum of the exponentials: `weight`. The weights mix the same 2048 rows,
  now read as values: `mix q k d = Σ_i weight i * k i d`.

  The output layer applies a `512 × 1024` matrix `w` to the row `(mix, q)` of length 1024, adds a bias and takes
  `tanh`. Written with the row joined first it is ONE sum over `Fin 1024`; written with the matrix split into its two
  halves it is the sum over the first 512 columns against `mix` plus the sum over the last 512 against `q`. The two
  are equal because a sum over `Fin 1024` is the sum over its first 512 indices plus the sum over its last 512
  (`sum_lo_hi`): only that addition of extended reals is commutative and associative is used, so the equation holds
  at the infinities too.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## One row -/

/-- The f32 word `0xFF800000`, read as an extended real: −∞. -/
def negInf : EReal := Ideal.ofBits .f32 0xFF800000#32

/-- −∞ is the unit of `max`. -/
theorem max_negInf (y : EReal) : max negInf y = y := by
  unfold negInf; simp [Ideal.ofBits, Ideal.ieee]

/-- The inner product of the query row with key row `i`. -/
def score (q : Fin 512 → EReal) (k : Fin 2048 → Fin 512 → EReal) (i : Fin 2048) : EReal :=
  ∑ d : Fin 512, q d * k i d

/-- The largest of a row of 2048 scores: the fold of `max` from −∞. -/
def top (s : Fin 2048 → EReal) : EReal := (Finset.univ : Finset (Fin 2048)).fold max negInf s

/-- The exponential of a score less the largest score. -/
def num (s : Fin 2048 → EReal) (i : Fin 2048) : EReal := Ideal.exp (s i - top s)

/-- The softmax weight: that exponential over the sum of all of them. -/
def weight (s : Fin 2048 → EReal) (i : Fin 2048) : EReal := Ideal.div (num s i) (∑ j : Fin 2048, num s j)

/-- The attention weight of key `i` for query row `q`. -/
def attn (q : Fin 512 → EReal) (k : Fin 2048 → Fin 512 → EReal) (i : Fin 2048) : EReal := weight (score q k) i

/-- The weighted mixture of the rows, coordinate `d`. -/
def mix (q : Fin 512 → EReal) (k : Fin 2048 → Fin 512 → EReal) (d : Fin 512) : EReal :=
  ∑ i : Fin 2048, attn q k i * k i d

/-! ## The two halves of `Fin 1024` -/

/-- Index `k` of the first half. -/
def lo (k : Fin 512) : Fin 1024 := ⟨k.val, by have := k.isLt; omega⟩
/-- Index `k` of the second half. -/
def hi (k : Fin 512) : Fin 1024 := ⟨512 + k.val, by have := k.isLt; omega⟩

@[simp] theorem lo_val (k : Fin 512) : (lo k).val = k.val := rfl
@[simp] theorem hi_val (k : Fin 512) : (hi k).val = 512 + k.val := rfl

/-- A sum over `Fin 1024` is the sum over its first 512 indices plus the sum over its last 512, in any additive
    commutative monoid. -/
theorem sum_lo_hi {M : Type*} [AddCommMonoid M] (f : Fin 1024 → M) :
    ∑ k : Fin 1024, f k = ∑ k : Fin 512, f (lo k) + ∑ k : Fin 512, f (hi k) :=
  Fin.sum_univ_add (a := 512) (b := 512) f

/-! ## The arrays -/

/-- A batch of 8 sequences of 2048 rows of 512 numbers. -/
abbrev Seqs := (⟨3, ![8, 2048, 512]⟩ : Shape).Idx → EReal
/-- The layer's `512 × 1024` matrix. -/
abbrev Mat := (⟨2, ![512, 1024]⟩ : Shape).Idx → EReal
/-- The layer's bias. -/
abbrev Bias := (⟨1, ![512]⟩ : Shape).Idx → EReal

/-- Row `o` of sequence `b`. -/
def row (x : Seqs) (b : Fin 8) (o : Fin 2048) : Fin 512 → EReal := fun d => x (ix3 b o d)

/-- The 2048 rows of sequence `b`. -/
def rows (c : Seqs) (b : Fin 8) : Fin 2048 → Fin 512 → EReal := fun i d => c (ix3 b i d)

/-- THE ATTENTION WEIGHTS: entry `(b, o, i)` is the weight of row `i` of `c`'s sequence `b` for row `o` of `x`'s. -/
def weights (x c : Seqs) : (⟨3, ![8, 2048, 2048]⟩ : Shape).Idx → EReal :=
  fun j => attn (row x (j 0) (j 1)) (rows c (j 0)) (j 2)

/-- The layer before `tanh`, the matrix given as its two halves, each transposed (`w₁ e d` multiplies coordinate `e` of
    the mixture into output `d`, `w₂ e d` coordinate `e` of the query row): entry `d` for query row `q`. -/
def logit (q : Fin 512 → EReal) (k : Fin 2048 → Fin 512 → EReal) (w₁ w₂ : Fin 512 → Fin 512 → EReal)
    (bias : Fin 512 → EReal) (d : Fin 512) : EReal :=
  (∑ e : Fin 512, mix q k e * w₁ e d + ∑ e : Fin 512, q e * w₂ e d) + bias d

/-- The first 512 columns of the matrix, transposed. -/
def half₁ (w : Mat) : Fin 512 → Fin 512 → EReal := fun e d => w (ix2 d (lo e))
/-- The last 512 columns of the matrix, transposed. -/
def half₂ (w : Mat) : Fin 512 → Fin 512 → EReal := fun e d => w (ix2 d (hi e))
/-- The bias by its coordinate. -/
def entries (bias : Bias) : Fin 512 → EReal := fun d => bias (ix1 d)

/-- THE OUTPUT: entry `(b, o, d)` is `tanh` of the layer applied to the mixture for row `o` and to the row itself. -/
def output (x c : Seqs) (w : Mat) (bias : Bias) : Seqs :=
  fun j => Ideal.tanh (logit (row x (j 0) (j 1)) (rows c (j 0)) (half₁ w) (half₂ w) (entries bias) (j 2))

/-- The layer with the row joined first — ONE sum over the 1024 columns, column `e` against the mixture when it is
    among the first 512 and against the query row otherwise — is the layer with the matrix split. -/
theorem joined_eq_logit (q : Fin 512 → EReal) (k : Fin 2048 → Fin 512 → EReal) (w : Mat) (bias : Bias) (d : Fin 512)
    (joined : Fin 1024 → EReal) (h₁ : ∀ e, joined (lo e) = mix q k e) (h₂ : ∀ e, joined (hi e) = q e) :
    (∑ e : Fin 1024, joined e * w (ix2 d e)) + bias (ix1 d) = logit q k (half₁ w) (half₂ w) (entries bias) d := by
  unfold logit half₁ half₂ entries
  rw [sum_lo_hi]
  simp only [h₁, h₂]

end Cert.Attn

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.RowSoftmax.lean ====
/-
  The softmax of each row of a `512 × 2048` block of scores, as a vector program computes it, read at an entry.

  The program reduces the block along its rows by `max` from −∞, views the 512 maxima as a column, spreads the column
  back over the block, subtracts, exponentiates, reduces the exponentials along the rows by `+`, spreads that column
  back the same way and divides. At entry `(r, i)` every one of these steps reads row `r` only: the result is the
  softmax weight of score `i` among the 2048 scores of row `r` (`Attn.weight`).
-/
import proofs.«162151_j42949672961258_2_alg».proof.Proof.Attention
import proofs.«162151_j42949672961258_2_alg».proof.Proof.LibColumn
import Idealize.ShloMosaic.PureOps.Ideal.Laws
import Idealize.ShloMosaic.Lib.Pipeline.Value

noncomputable section

open scoped BigOperators

namespace Cert.Attn

open Idealize.ShloMosaic Idealize.ShloMosaic.ValueIdx

/-- A block of scores: 512 query rows against 2048 keys. -/
abbrev Scores : Shape := ⟨2, ![512, 2048]⟩
/-- One number per query row. -/
abbrev PerRow : Shape := ⟨1, ![512]⟩
/-- The same as a column. -/
abbrev Column : Shape := ⟨2, ![512, 1]⟩

/-- Row `r` with column `k` put back is entry `(r, k)`. -/
theorem lift_row (h : Scores.Reduces [1] PerRow) (r : Fin 512) (k : Fin (Scores.size 1)) :
    h.lift (ix1 r) k = ix2 r (⟨k.val, k.isLt⟩ : Fin 2048) := by
  funext c; apply Fin.ext
  fin_cases c <;> rfl

/-- The row maxima, spread back over the block: at `(r, i)` the largest score of row `r`. -/
theorem rowMax_apply (s : FVec Ideal Scores .f32) (hr : Scores.Reduces [1] PerRow) (hc : PerRow.ShapeCasts Column)
    (hb : Column.Broadcasts Scores) (r : Fin 512) (i : Fin 2048) :
    broadcastTo Scores (shapeCast Column (multiReduction .maximumf [1] PerRow s 0xFF800000#32 hr (.inl rfl) rfl) hc) hb (ix2 r i)
      = top fun i' => s (ix2 r i') := by
  refine (Cert.Lib.broadcastTo_a1_ab_apply _ hb r i).trans ?_
  refine (Cert.Lib.shapeCast_a_a1_apply _ hc r 0).trans ?_
  refine (Ideal.multiReduction_maximumf_single s _ hr (.inl rfl) rfl (ix1 r)).trans ?_
  have hf : (s ∘ hr.lift (ix1 r)) = fun k : Fin 2048 => s (ix2 r k) := funext fun k => congrArg s (lift_row hr r k)
  exact congrArg (fun f => Finset.fold max (Ideal.ofBits .f32 0xFF800000#32) f (Finset.univ : Finset (Fin 2048))) hf

/-- The row sums, spread back over the block: at `(r, i)` the sum of row `r`. -/
theorem rowSum_apply (e : FVec Ideal Scores .f32) (hr : Scores.Reduces [1] PerRow) (hc : PerRow.ShapeCasts Column)
    (hb : Column.Broadcasts Scores) (r : Fin 512) (i : Fin 2048) :
    broadcastTo Scores (shapeCast Column (multiReduction .add [1] PerRow e 0x00000000#32 hr (.inl rfl) rfl) hc) hb (ix2 r i)
      = ∑ k : Fin 2048, e (ix2 r k) := by
  refine (Cert.Lib.broadcastTo_a1_ab_apply _ hb r i).trans ?_
  refine (Cert.Lib.shapeCast_a_a1_apply _ hc r 0).trans ?_
  refine (Ideal.multiReduction_add_single e _ hr (.inl rfl) rfl (ix1 r)).trans ?_
  exact Finset.sum_congr rfl fun k _ => congrArg e (lift_row hr r k)

/-- The block of exponentials: each score less its row's maximum, exponentiated. -/
def expRows (s : FVec Ideal Scores .f32) (hr : Scores.Reduces [1] PerRow) (hc : PerRow.ShapeCasts Column)
    (hb : Column.Broadcasts Scores) : FVec Ideal Scores .f32 :=
  exp (subf s (broadcastTo Scores (shapeCast Column (multiReduction .maximumf [1] PerRow s 0xFF800000#32 hr (.inl rfl) rfl) hc) hb))

/-- At `(r, i)` it is the numerator of the softmax of row `r`. -/
theorem expRows_apply (s : FVec Ideal Scores .f32) (hr : Scores.Reduces [1] PerRow) (hc : PerRow.ShapeCasts Column)
    (hb : Column.Broadcasts Scores) (r : Fin 512) (i : Fin 2048) :
    expRows s hr hc hb (ix2 r i) = num (fun i' => s (ix2 r i')) i := by
  show Ideal.exp (s (ix2 r i) - _) = Ideal.exp (s (ix2 r i) - _)
  exact congrArg (fun z => Ideal.exp (s (ix2 r i) - z)) (rowMax_apply s hr hc hb r i)

/-- The block of softmax weights: the exponentials over their row sums. -/
def softmaxRows (s : FVec Ideal Scores .f32) (hr : Scores.Reduces [1] PerRow) (hc : PerRow.ShapeCasts Column)
    (hb : Column.Broadcasts Scores) : FVec Ideal Scores .f32 :=
  divf (expRows s hr hc hb)
    (broadcastTo Scores (shapeCast Column (multiReduction .add [1] PerRow (expRows s hr hc hb) 0x00000000#32 hr (.inl rfl) rfl) hc) hb)

/-- AT `(r, i)` IT IS THE SOFTMAX WEIGHT of score `i` in row `r`. -/
theorem softmaxRows_apply (s : FVec Ideal Scores .f32) (hr : Scores.Reduces [1] PerRow) (hc : PerRow.ShapeCasts Column)
    (hb : Column.Broadcasts Scores) (r : Fin 512) (i : Fin 2048) :
    softmaxRows s hr hc hb (ix2 r i) = weight (fun i' => s (ix2 r i')) i := by
  show Ideal.div (expRows s hr hc hb (ix2 r i)) _ = Ideal.div (num _ i) (∑ j : Fin 2048, num _ j)
  rw [rowSum_apply (expRows s hr hc hb) hr hc hb r i, expRows_apply s hr hc hb r i]
  exact congrArg (Ideal.div _) (Finset.sum_congr rfl fun k _ => expRows_apply s hr hc hb r k)

end Cert.Attn

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibMatmulTransposedRhs.lean ====
/-
  A matrix product whose right operand is contracted on its LAST axis, into a zero accumulator, read at an entry, over
  the extended reals.

  For the dimension numbers `DotDims.transposedRhs M K N` (an `M × K` left operand, an `N × K` right operand, the
  columns of both contracted, no batch axis: the product of the left operand with the right one's transpose) entry
  `(p, q)` of the product accumulated into the zero matrix is `Σ_{k < K} l (p, k) * r (q, k)`: the contraction index
  has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem transposedRhs_lhsIdx (M K N : Nat) (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index there is `(q, k)`: its row is the output's column. -/
theorem transposedRhs_rhsIdx (M K N : Nat) (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- ENTRY `(p, q)` OF A PRODUCT WITH THE TRANSPOSE, INTO ZERO: the sum over `k : Fin K` of `l (p, k) * r (q, k)`. -/
theorem matmul_transposedRhs_zero_apply {φ₁ φ₂ : FTy} (M K N : Nat) (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.Lib

end
-- ==== Proof.KernelBlock.lean ====
/-
  What the kernel's body computes at one grid point, read at an entry of each stored block.

  At a grid point the body holds a block of 512 query rows `P0`, the 2048 rows `P1` of the point's sequence, the two
  halves `P2`, `P3` of the layer's matrix (each transposed) and the bias `P4`. It stores
  * the softmax, row by row, of the `512 × 2048` product of the query rows with the transposed rows of `P1`
    (`k0_pay4`): at `(r, i)` the attention weight of row `i` for query row `r`;
  * `tanh` of: those weights times `P1`, times `P2`, plus the query rows times `P3`, plus the bias along rows
    (`k0_pay6`): at `(r, d)` the layer's output `d` for query row `r`.
  The roundings to sixteen bits between the products are the identity on the extended reals.
-/
import proofs.«162151_j42949672961258_2_alg».proof.Proof.Gen.KernelIdeal.Skeleton
import proofs.«162151_j42949672961258_2_alg».proof.Proof.RowSoftmax
import proofs.«162151_j42949672961258_2_alg».proof.Proof.LibMatmulPlain
import proofs.«162151_j42949672961258_2_alg».proof.Proof.LibMatmulTransposedRhs
import Idealize.ShloMosaic.Lib.ValueLayout

noncomputable section

open scoped BigOperators

namespace Cert.KernelIdeal.Block

open Cert.KernelIdeal Cert.KernelIdeal.Gen Cert.Attn
open Idealize.ShloMosaic Idealize.ShloMosaic.ValueIdx

/-- Query row `r` of the block. -/
def qRow (P0 : FVec Ideal S1x512x512 .bf16) (r : Fin 512) : Fin 512 → EReal := fun d => P0 (ix3 0 r d)

/-- The 2048 rows of the point's sequence. -/
def kRows (P1 : FVec Ideal S1x2048x512 .bf16) : Fin 2048 → Fin 512 → EReal := fun i d => P1 (ix3 0 i d)

/-- The block of query rows without its unit axis, at `(r, d)`. -/
theorem pay2_apply (P0 : FVec Ideal S1x512x512 .bf16) (r d : Fin 512) : k0_pay2 (F := Ideal) P0 (ix2 r d) = qRow P0 r d :=
  shapeCast_1ab_ab_apply P0 _ r d

/-- The sequence's rows without their unit axis, at `(i, d)`. -/
theorem pay3_apply (P1 : FVec Ideal S1x2048x512 .bf16) (i : Fin 2048) (d : Fin 512) : k0_pay3 (F := Ideal) P1 (ix2 i d) = kRows P1 i d :=
  shapeCast_1ab_ab_apply P1 _ i d

/-- THE SCORES: the product of the query rows with the transposed rows, at `(r, i)`, is the inner product of query
    row `r` with row `i`. -/
theorem scores_apply (P0 : FVec Ideal S1x512x512 .bf16) (P1 : FVec Ideal S1x2048x512 .bf16) (r : Fin 512) (i : Fin 2048) :
    matmul (F := Ideal) dot_S512x512_S2048x512_S512x2048_1_1_0_0_n_n none (k0_pay2 (F := Ideal) P0) (k0_pay3 (F := Ideal) P1) (constant S512x2048 .f32 0x00000000#32) (ix2 r i)
      = score (qRow P0 r) (kRows P1) i := by
  refine (Cert.Lib.matmul_transposedRhs_zero_apply 512 512 2048 none (k0_pay2 (F := Ideal) P0) (k0_pay3 (F := Ideal) P1) r i).trans ?_
  exact Finset.sum_congr rfl fun d _ => congrArg₂ (· * ·) (pay2_apply P0 r d) (pay3_apply P1 i d)

/-- The stored weights are the row softmax of the scores. -/
theorem pay4_eq (P0 : FVec Ideal S1x512x512 .bf16) (P1 : FVec Ideal S1x2048x512 .bf16) :
    k0_pay4 (F := Ideal) P0 P1 = softmaxRows (matmul (F := Ideal) dot_S512x512_S2048x512_S512x2048_1_1_0_0_n_n none (k0_pay2 (F := Ideal) P0) (k0_pay3 (F := Ideal) P1) (constant S512x2048 .f32 0x00000000#32))
      Facts₀.reduces_S512x2048_S512 Facts₀.shapeCasts_S512_S512x1 Facts₀.broadcasts_S512x1_S512x2048 := by
  unfold k0_pay4 softmaxRows expRows
  rfl

/-- THE WEIGHTS at `(r, i)`: the attention weight of row `i` for query row `r`. -/
theorem pay4_apply (P0 : FVec Ideal S1x512x512 .bf16) (P1 : FVec Ideal S1x2048x512 .bf16) (r : Fin 512) (i : Fin 2048) :
    k0_pay4 (F := Ideal) P0 P1 (ix2 r i) = attn (qRow P0 r) (kRows P1) i := by
  rw [pay4_eq]
  refine (softmaxRows_apply _ _ _ _ r i).trans ?_
  exact congrArg (fun s => weight s i) (funext fun i' => scores_apply P0 P1 r i')

/-- THE MIXTURE: the weights times the rows, at `(r, e)`. -/
theorem mix_apply (P0 : FVec Ideal S1x512x512 .bf16) (P1 : FVec Ideal S1x2048x512 .bf16) (r e : Fin 512) :
    matmul (F := Ideal) dot_S512x2048_S2048x512_S512x512_1_0_0_1_n_n none (truncf .bf16 (k0_pay4 (F := Ideal) P0 P1) Facts₀.bitsLt_bf16_f32) (k0_pay3 (F := Ideal) P1) (constant S512x512 .f32 0x00000000#32) (ix2 r e)
      = mix (qRow P0 r) (kRows P1) e := by
  refine (Cert.Lib.matmul_plain_zero_apply 512 2048 512 none (truncf .bf16 (k0_pay4 (F := Ideal) P0 P1) Facts₀.bitsLt_bf16_f32) (k0_pay3 (F := Ideal) P1) r e).trans ?_
  exact Finset.sum_congr rfl fun i _ => congrArg₂ (· * ·) (pay4_apply P0 P1 r i) (pay3_apply P1 i e)

/-- THE OUTPUT at `(r, d)`: `tanh` of the layer applied to the mixture for query row `r` and to the row itself. -/
theorem pay6_apply (P0 : FVec Ideal S1x512x512 .bf16) (P1 : FVec Ideal S1x2048x512 .bf16) (P2 P3 : FVec Ideal S512x512 .bf16)
    (P4 : FVec Ideal S512 .f32) (r d : Fin 512) :
    k0_pay6 (F := Ideal) P0 P1 P2 P3 P4 (ix2 r d)
      = Ideal.tanh (logit (qRow P0 r) (kRows P1) (fun e d' => P2 (ix2 e d')) (fun e d' => P3 (ix2 e d')) (fun d' => P4 (ix1 d')) d) := by
  show Ideal.tanh ((_ + _) + _) = Ideal.tanh ((_ + _) + _)
  refine congrArg Ideal.tanh (congrArg₂ (· + ·) (congrArg₂ (· + ·) ?_ ?_) ?_)
  · refine (Cert.Lib.matmul_plain_zero_apply 512 512 512 none _ _ r d).trans ?_
    refine Finset.sum_congr rfl fun e _ => congrArg₂ (· * ·) (mix_apply P0 P1 r e) ?_
    exact congrFun (shapeCast_self P2 _) (ix2 e d)
  · refine (Cert.Lib.matmul_plain_zero_apply 512 512 512 none _ _ r d).trans ?_
    refine Finset.sum_congr rfl fun e _ => congrArg₂ (· * ·) (pay2_apply P0 r e) ?_
    exact congrFun (shapeCast_self P3 _) (ix2 e d)
  · refine (broadcastTo_1b_ab_apply _ _ r d).trans ?_
    exact shapeCast_a_1a_apply P4 _ 0 d

end Cert.KernelIdeal.Block

end
-- ==== Proof.KernelInputs.lean ====
/-
  The arrays the kernel's region reads, and each window's block at a grid point, in terms of the four arguments.

  Before the region the program cuts the layer's `512 × 1024` matrix into its first and last 512 columns, transposes
  each half, and rounds the two argument sequences and the two halves to sixteen bits; on the extended reals the
  rounding is the identity. So the region finds the query sequences and the key sequences as the first two arguments
  themselves, and finds at `(e, d)` of the two matrix arrays the matrix at `(d, e)` and at `(d, 512 + e)`.

  The grid has a point for each of the 8 sequences `b` and each of the 4 blocks `g` of 512 query rows. At that point
  the first window holds rows `512 g … 512 g + 511` of sequence `b` of the queries, the second all 2048 rows of
  sequence `b` of the keys, the next three the two matrix arrays and the bias whole.
-/
import proofs.«162151_j42949672961258_2_alg».proof.Proof.Gen.KernelIdeal.Frame
import proofs.«162151_j42949672961258_2_alg».proof.Proof.Attention
import Idealize.ShloMosaic.Lib.Pipeline.Value
import Idealize.ShloMosaic.Lib.StableHlo.Run
import Idealize.ShloMosaic.Lib.ValueLayout

noncomputable section

namespace Cert.KernelIdeal.Hand

open Cert.KernelIdeal Cert.KernelIdeal.Gen Cert.Attn
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The four arguments -/

/-- The query sequences. -/
abbrev argX (c : Dev nD) : Seqs := m ((c : Thread nD τ).loc main_arg0)
/-- The key sequences. -/
abbrev argC (c : Dev nD) : Seqs := m ((c : Thread nD τ).loc main_arg1)
/-- The layer's matrix. -/
abbrev argW (c : Dev nD) : Mat := m ((c : Thread nD τ).loc main_arg2)
/-- The layer's bias. -/
abbrev argB (c : Dev nD) : Bias := m ((c : Thread nD τ).loc main_arg3)

/-! ## The arrays as the region finds them -/

/-- The queries the region reads are the first argument. -/
theorem V_queries (c : Dev nD) : (V m c main_v4 : S8x2048x512.Idx → EReal) = argX m c := by
  have e : (V m c main_v4 : S8x2048x512.Idx → EReal)
      = truncf (F := Ideal) .bf16 (m ((c : Thread nD τ).loc main_arg0)) Facts₀.bitsLt_bf16_f32 := by
    dsimp only [Gen.V, Gen.hostOps0]; after_results <;> rfl
  rw [e]; rfl

/-- The keys the region reads are the second argument. -/
theorem V_keys (c : Dev nD) : (V m c main_v5 : S8x2048x512.Idx → EReal) = argC m c := by
  have e : (V m c main_v5 : S8x2048x512.Idx → EReal)
      = truncf (F := Ideal) .bf16 (m ((c : Thread nD τ).loc main_arg1)) Facts₀.bitsLt_bf16_f32 := by
    dsimp only [Gen.V, Gen.hostOps0]; after_results <;> rfl
  rw [e]; rfl

/-- The first matrix array at `(e, d)` is the matrix at `(d, e)`. -/
theorem V_half₁ (c : Dev nD) (e d : Fin 512) : (V m c main_v6 : S512x512.Idx → EReal) (ix2 e d) = half₁ (argW m c) e d := by
  have h : (V m c main_v6 : S512x512.Idx → EReal)
      = transpose S512x512 [1, 0] (extractStridedSlice S512x512 ![0, 0] (argW m c)
          Facts₀.slices_S512x1024_S512x512_0_0) Facts₀.transposes_S512x512_S512x512_1_0 := by
    dsimp only [Gen.V, Gen.hostOps0]; after_results <;> rfl
  rw [h]
  refine (transpose_ix2_apply _ _ e d).trans ?_
  refine (slice2_axis1_eq 0 _ _ d e).trans ?_
  exact congrArg (argW m c) (congrArg (ix2 d) (Fin.ext (Nat.zero_add _)))

/-- The second matrix array at `(e, d)` is the matrix at `(d, 512 + e)`. -/
theorem V_half₂ (c : Dev nD) (e d : Fin 512) : (V m c main_v7 : S512x512.Idx → EReal) (ix2 e d) = half₂ (argW m c) e d := by
  have h : (V m c main_v7 : S512x512.Idx → EReal)
      = transpose S512x512 [1, 0] (extractStridedSlice S512x512 ![0, 512] (argW m c)
          Facts₀.slices_S512x1024_S512x512_0_512) Facts₀.transposes_S512x512_S512x512_1_0 := by
    dsimp only [Gen.V, Gen.hostOps0]; after_results <;> rfl
  rw [h]
  refine (transpose_ix2_apply _ _ e d).trans ?_
  exact slice2_axis1_eq 512 _ _ d e

/-! ## The grid's points -/

/-- The printed index maps, decided over the 32 points: the query window and both output windows sit at block
    `(b, g, 0)`, the key window at `(b, 0, 0)`, the matrix and bias windows at the origin; `b < 8`, `g < 4`. -/
theorem idx_facts : ∀ t : Fin cfg0.N,
    win0_5.index t (0 : Fin 3) < 8 ∧ win0_5.index t (1 : Fin 3) < 4 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_6.index t (0 : Fin 3) = win0_5.index t (0 : Fin 3) ∧ win0_6.index t (1 : Fin 3) = win0_5.index t (1 : Fin 3) ∧ win0_6.index t (2 : Fin 3) = 0 :=
  (by decide +kernel : ∀ t : Fin grid0.N, _)

/-- Every pair of a sequence and a block of query rows is some point's. -/
theorem idx_onto : ∀ (b : Fin 8) (g : Fin 4), ∃ t : Fin cfg0.N, win0_5.index t = ![b.val, g.val, 0] :=
  (by decide +kernel : ∀ (b : Fin 8) (g : Fin 4), ∃ t : Fin grid0.N, win0_5.index t = ![b.val, g.val, 0])

/-- The sequence point `t` works on. -/
def seqOf (t : Fin cfg0.N) : Fin 8 := ⟨win0_5.index t (0 : Fin 3), (idx_facts t).1⟩

/-- Row `r` of point `t`'s block of query rows, as a row of the sequence. -/
def rowOf (t : Fin cfg0.N) (r : Fin 512) : Fin 2048 :=
  ⟨win0_5.index t (1 : Fin 3) * 512 + r.val, by have := (idx_facts t).2.1; have := r.isLt; omega⟩

/-! ## Each input window's block at a point -/

/-- The query window's block: row `r` is row `rowOf t r` of sequence `seqOf t`. -/
theorem queries_read (c : Dev nD) (t : Fin cfg0.N) (r d : Fin 512) :
    (iblk m c 0 t : S1x512x512.Idx → EReal) (ix3 0 r d) = argX m c (ix3 (seqOf t) (rowOf t r) d) := by
  obtain ⟨-, -, -, e0, e1, e2, -⟩ := idx_facts t
  unfold iblk
  rw [View.read_apply]
  show (V m c main_v4 : S8x2048x512.Idx → EReal) _ = _
  rw [V_queries]
  refine congrArg (argX m c) (funext fun a => Fin.ext ?_)
  match a with
  | ⟨0, _⟩ => show win0_0.index t (0 : Fin 3) * 1 + 1 * 0 = win0_5.index t (0 : Fin 3); omega
  | ⟨1, _⟩ => show win0_0.index t (1 : Fin 3) * 512 + 1 * r.val = win0_5.index t (1 : Fin 3) * 512 + r.val; omega
  | ⟨2, _⟩ => show win0_0.index t (2 : Fin 3) * 512 + 1 * d.val = d.val; omega

/-- The key window's block: all the rows of sequence `seqOf t`. -/
theorem keys_read (c : Dev nD) (t : Fin cfg0.N) (i : Fin 2048) (d : Fin 512) :
    (iblk m c 1 t : S1x2048x512.Idx → EReal) (ix3 0 i d) = argC m c (ix3 (seqOf t) i d) := by
  obtain ⟨-, -, -, -, -, -, e0, e1, e2, -⟩ := idx_facts t
  unfold iblk
  rw [View.read_apply]
  show (V m c main_v5 : S8x2048x512.Idx → EReal) _ = _
  rw [V_keys]
  refine congrArg (argC m c) (funext fun a => Fin.ext ?_)
  match a with
  | ⟨0, _⟩ => show win0_1.index t (0 : Fin 3) * 1 + 1 * 0 = win0_5.index t (0 : Fin 3); omega
  | ⟨1, _⟩ => show win0_1.index t (1 : Fin 3) * 2048 + 1 * i.val = i.val; omega
  | ⟨2, _⟩ => show win0_1.index t (2 : Fin 3) * 512 + 1 * d.val = d.val; omega

/-- The first matrix window's block is its whole array. -/
theorem half₁_read (c : Dev nD) (t : Fin cfg0.N) (e d : Fin 512) :
    (iblk m c 2 t : S512x512.Idx → EReal) (ix2 e d) = half₁ (argW m c) e d := by
  obtain ⟨-, -, -, -, -, -, -, -, -, e0, e1, -⟩ := idx_facts t
  unfold iblk
  rw [View.read_apply]
  show (V m c main_v6 : S512x512.Idx → EReal) _ = _
  refine Eq.trans (congrArg (V m c main_v6 : S512x512.Idx → EReal) (funext fun a => Fin.ext ?_)) (V_half₁ m c e d)
  match a with
  | ⟨0, _⟩ => show win0_2.index t (0 : Fin 2) * 512 + 1 * e.val = e.val; omega
  | ⟨1, _⟩ => show win0_2.index t (1 : Fin 2) * 512 + 1 * d.val = d.val; omega

/-- The second matrix window's block is its whole array. -/
theorem half₂_read (c : Dev nD) (t : Fin cfg0.N) (e d : Fin 512) :
    (iblk m c 3 t : S512x512.Idx → EReal) (ix2 e d) = half₂ (argW m c) e d := by
  obtain ⟨-, -, -, -, -, -, -, -, -, -, -, e0, e1, -⟩ := idx_facts t
  unfold iblk
  rw [View.read_apply]
  show (V m c main_v7 : S512x512.Idx → EReal) _ = _
  refine Eq.trans (congrArg (V m c main_v7 : S512x512.Idx → EReal) (funext fun a => Fin.ext ?_)) (V_half₂ m c e d)
  match a with
  | ⟨0, _⟩ => show win0_3.index t (0 : Fin 2) * 512 + 1 * e.val = e.val; omega
  | ⟨1, _⟩ => show win0_3.index t (1 : Fin 2) * 512 + 1 * d.val = d.val; omega

/-- The bias window's block is the bias. -/
theorem bias_read (c : Dev nD) (t : Fin cfg0.N) (d : Fin 512) :
    (iblk m c 4 t : S512.Idx → EReal) (ix1 d) = entries (argB m c) d := by
  obtain ⟨-, -, -, -, -, -, -, -, -, -, -, -, -, e0, -⟩ := idx_facts t
  unfold iblk
  rw [View.read_apply]
  show (V m c main_arg3 : S512.Idx → EReal) _ = _
  rw [V_main_arg3]
  refine congrArg (argB m c) (funext fun a => Fin.ext ?_)
  match a with
  | ⟨0, _⟩ => show win0_4.index t (0 : Fin 1) * 512 + 1 * d.val = d.val; omega

end Cert.KernelIdeal.Hand

end
-- ==== Proof.KernelWeights.lean ====
/-
  The attention-weights array after the kernel's run is the specification's.

  At the grid point of sequence `b` and query block `g` the body leaves, in the output window's `[1, 512, 2048]`
  block, at `(0, r, i)` the attention weight of row `i` for the block's query row `r` (`block_weights`). That query row
  is row `512 g + r` of sequence `b` of the first argument and the rows are those of sequence `b` of the second, and
  the block sits at rows `512 g … 512 g + 511` of sequence `b` of the result: so the point writes back exactly its
  block of `Attn.weights` (`weights_flushed`). The 32 blocks tile the `8 × 2048 × 2048` array — entry `(b, o, i)` is
  in the block of the point `(b, o / 512)` — so the array ends holding `Attn.weights` everywhere (`weights_final`).
-/
import proofs.«162151_j42949672961258_2_alg».proof.Proof.Gen.KernelIdeal.Value
import proofs.«162151_j42949672961258_2_alg».proof.Proof.KernelBlock
import proofs.«162151_j42949672961258_2_alg».proof.Proof.KernelInputs

noncomputable section

namespace Cert.KernelIdeal.Hand

open Cert.KernelIdeal Cert.KernelIdeal.Gen Cert.KernelIdeal.Block Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The origin of a rank-3 block. -/
theorem origin3 : (![0, 0, 0] : Fin 3 → Nat) = fun _ => 0 := funext fun a => by fin_cases a <;> rfl

/-- WHAT THE BODY LEAVES in the weights window at one point, over any input blocks: at `(u, r, i)` the attention
    weight of row `i` for query row `r`. -/
theorem block_weights (x0 : Vec Ideal S1x512x512 .bf16) (x1 : Vec Ideal S1x2048x512 .bf16) (x2 x3 : Vec Ideal S512x512 .bf16)
    (x4 : Vec Ideal S512 .f32) (y : S1x512x2048.Idx) :
    out0_5 x0 x1 x2 x3 x4 y = attn (qRow x0 ⟨(y 1).val, (y 1).isLt⟩) (kRows x1) ⟨(y 2).val, (y 2).isLt⟩ := by
  unfold out0_5
  refine (Value.canon5_eq _ _ y).trans ?_
  rw [View.ld_unit_zero (S := S1x512x512) origin3, View.ld_unit_zero (S := S1x2048x512) origin3]
  have hix : Value.ix5_0 y = ix2 (⟨(y 1).val, (y 1).isLt⟩ : Fin 512) (⟨(y 2).val, (y 2).isLt⟩ : Fin 2048) :=
    funext fun a => Fin.ext (by match a with | ⟨0, _⟩ => rfl | ⟨1, _⟩ => rfl)
  show k0_pay4 (F := Ideal) x0 x1 (Value.ix5_0 y) = _
  rw [hix]
  exact pay4_apply x0 x1 _ _

/-- Entry `(u, r, i)` of point `t`'s block of the weights array is the array's entry `(seqOf t, rowOf t r, i)`. -/
theorem weights_emb (t : Fin cfg0.N) (y : S1x512x2048.Idx) :
    (((cfg0.win 5).blk t).view.emb y : S8x2048x2048.Idx)
      = ix3 (seqOf t) (rowOf t ⟨(y 1).val, (y 1).isLt⟩) (⟨(y 2).val, (y 2).isLt⟩ : Fin 2048) := by
  obtain ⟨h0, h1, h2, -⟩ := idx_facts t
  have hy0 : (y 0).val < 1 := (y 0).isLt
  funext a; apply Fin.ext
  match a with
  | ⟨0, _⟩ => show win0_5.index t (0 : Fin 3) * 1 + 1 * (y 0).val = win0_5.index t (0 : Fin 3); omega
  | ⟨1, _⟩ => show win0_5.index t (1 : Fin 3) * 512 + 1 * (y 1).val = win0_5.index t (1 : Fin 3) * 512 + (y 1).val; omega
  | ⟨2, _⟩ => show win0_5.index t (2 : Fin 3) * 2048 + 1 * (y 2).val = (y 2).val; omega

/-- WHAT POINT `t` WRITES BACK is block `t` of the specification's weights of the first two arguments. -/
theorem weights_flushed (c : Dev nD) (t : Fin cfg0.N) :
    (dats m 0 c).flushed 5 t = ((cfg0.win 5).blk t).view.read (Elt Ideal) (weights (argX m c) (argC m c)) := by
  rw [Value.flushed5]
  refine funext fun (y : S1x512x2048.Idx) => ?_
  show out0_5 (iblk m c 0 t) (iblk m c 1 t) (iblk m c 2 t) (iblk m c 3 t) (iblk m c 4 t) y
      = weights (argX m c) (argC m c) (((cfg0.win 5).blk t).view.emb y)
  rw [weights_emb t y]
  refine (block_weights (iblk m c 0 t) (iblk m c 1 t) (iblk m c 2 t) (iblk m c 3 t) (iblk m c 4 t) y).trans ?_
  show attn _ _ _ = attn (row (argX m c) (seqOf t) (rowOf t _)) (rows (argC m c) (seqOf t)) _
  refine congrArg₂ (fun q k => attn q k _) ?_ ?_
  · funext d; exact queries_read m c t _ d
  · funext i d; exact keys_read m c t i d

/-- An index of the array is in point `t`'s block iff each coordinate is in the block's range on its axis. -/
theorem weights_mem_blk (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v8_0).slice (win0_5.rect t)).set ↔ _
  rw [View.set_slice_whole, Rect.mem_set_unit]
  exact Iff.rfl

/-- Every entry of the array is in some point's block: entry `(b, o, i)` in that of the point `(b, o / 512)`. -/
theorem weights_cover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [weights_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- THE WEIGHTS ARRAY AFTER THE RUN is the specification's weights of the first two arguments. -/
theorem weights_final (c : Dev nD) : (dats m 0 c).arrAt 5 cfg0.N = weights (argX m c) (argC m c) :=
  (dats m 0 c).arrAt_eq_of_cover 5 (weights (argX m c) (argC m c)) (fun t _ => weights_flushed m c t) weights_cover

end Cert.KernelIdeal.Hand

end
-- ==== Proof.KernelOutput.lean ====
/-
  The output array after the kernel's run is the specification's.

  At the grid point of sequence `b` and query block `g` the body leaves, in the output window's `[1, 512, 512]` block,
  at `(0, r, d)` the layer's output `d` for the block's query row `r`, computed from the point's five input blocks
  (`block_output`). Those blocks are row `512 g + r` of sequence `b` of the first argument, the rows of sequence `b` of
  the second, the two transposed halves of the matrix and the bias; the block sits at rows `512 g … 512 g + 511` of
  sequence `b` of the result. So the point writes back exactly its block of `Attn.output` (`output_flushed`), the 32
  blocks tile the `8 × 2048 × 512` array, and the array ends holding `Attn.output` everywhere (`output_final`).
-/
import proofs.«162151_j42949672961258_2_alg».proof.Proof.Gen.KernelIdeal.Value
import proofs.«162151_j42949672961258_2_alg».proof.Proof.KernelBlock
import proofs.«162151_j42949672961258_2_alg».proof.Proof.KernelInputs

noncomputable section

namespace Cert.KernelIdeal.Hand

open Cert.KernelIdeal Cert.KernelIdeal.Gen Cert.KernelIdeal.Block Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The origin of a rank-3 block, of a rank-2 block, of a rank-1 block. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- WHAT THE BODY LEAVES in the output window at one point, over any input blocks: at `(u, r, d)` `tanh` of the layer
    applied to the mixture for query row `r` and to the row itself. -/
theorem block_output (x0 : Vec Ideal S1x512x512 .bf16) (x1 : Vec Ideal S1x2048x512 .bf16) (x2 x3 : Vec Ideal S512x512 .bf16)
    (x4 : Vec Ideal S512 .f32) (y : S1x512x512.Idx) :
    out0_6 x0 x1 x2 x3 x4 y
      = Ideal.tanh (logit (qRow x0 ⟨(y 1).val, (y 1).isLt⟩) (kRows x1) (fun e d' => x2 (ix2 e d')) (fun e d' => x3 (ix2 e d'))
          (fun d' => x4 (ix1 d')) ⟨(y 2).val, (y 2).isLt⟩) := by
  unfold out0_6
  refine (Value.canon6_eq _ _ _ _ _ y).trans ?_
  rw [View.ld_unit_zero (S := S1x512x512) zero3, View.ld_unit_zero (S := S1x2048x512) zero3,
    View.ld_unit_zero (S := S512x512) zero2, View.ld_unit_zero (S := S512x512) zero2, View.ld_unit_zero (S := S512) zero1]
  have hix : Value.ix6_0 y = ix2 (⟨(y 1).val, (y 1).isLt⟩ : Fin 512) (⟨(y 2).val, (y 2).isLt⟩ : Fin 512) :=
    funext fun a => Fin.ext (by match a with | ⟨0, _⟩ => rfl | ⟨1, _⟩ => rfl)
  show k0_pay6 (F := Ideal) x0 x1 x2 x3 x4 (Value.ix6_0 y) = _
  rw [hix]
  exact pay6_apply x0 x1 x2 x3 x4 _ _

/-- Entry `(u, r, d)` of point `t`'s block of the output array is the array's entry `(seqOf t, rowOf t r, d)`. -/
theorem output_emb (t : Fin cfg0.N) (y : S1x512x512.Idx) :
    (((cfg0.win 6).blk t).view.emb y : S8x2048x512.Idx)
      = ix3 (seqOf t) (rowOf t ⟨(y 1).val, (y 1).isLt⟩) (⟨(y 2).val, (y 2).isLt⟩ : Fin 512) := by
  obtain ⟨h0, h1, h2, -, -, -, -, -, -, -, -, -, -, -, e0, e1, e2⟩ := idx_facts t
  have hy0 : (y 0).val < 1 := (y 0).isLt
  funext a; apply Fin.ext
  match a with
  | ⟨0, _⟩ => show win0_6.index t (0 : Fin 3) * 1 + 1 * (y 0).val = win0_5.index t (0 : Fin 3); omega
  | ⟨1, _⟩ => show win0_6.index t (1 : Fin 3) * 512 + 1 * (y 1).val = win0_5.index t (1 : Fin 3) * 512 + (y 1).val; omega
  | ⟨2, _⟩ => show win0_6.index t (2 : Fin 3) * 512 + 1 * (y 2).val = (y 2).val; omega

/-- The layer depends on its six arguments only through their values. -/
theorem logit_congr {q q' : Fin 512 → EReal} {k k' : Fin 2048 → Fin 512 → EReal} {w₁ w₁' w₂ w₂' : Fin 512 → Fin 512 → EReal}
    {bs bs' : Fin 512 → EReal} (hq : q = q') (hk : k = k') (h₁ : w₁ = w₁') (h₂ : w₂ = w₂') (hb : bs = bs') (d : Fin 512) :
    logit q k w₁ w₂ bs d = logit q' k' w₁' w₂' bs' d := by
  subst hq hk h₁ h₂ hb; rfl

/-- WHAT POINT `t` WRITES BACK is block `t` of the specification's output of the four arguments. -/
theorem output_flushed (c : Dev nD) (t : Fin cfg0.N) :
    (dats m 0 c).flushed 6 t
      = ((cfg0.win 6).blk t).view.read (Elt Ideal) (output (argX m c) (argC m c) (argW m c) (argB m c)) := by
  rw [Value.flushed6]
  refine funext fun (y : S1x512x512.Idx) => ?_
  show out0_6 (iblk m c 0 t) (iblk m c 1 t) (iblk m c 2 t) (iblk m c 3 t) (iblk m c 4 t) y
      = output (argX m c) (argC m c) (argW m c) (argB m c) (((cfg0.win 6).blk t).view.emb y)
  rw [output_emb t y]
  refine (block_output (iblk m c 0 t) (iblk m c 1 t) (iblk m c 2 t) (iblk m c 3 t) (iblk m c 4 t) y).trans ?_
  show Ideal.tanh _ = Ideal.tanh (logit (row (argX m c) (seqOf t) (rowOf t _)) (rows (argC m c) (seqOf t)) (half₁ (argW m c))
    (half₂ (argW m c)) (entries (argB m c)) _)
  refine congrArg Ideal.tanh (logit_congr ?_ ?_ ?_ ?_ ?_ _)
  · funext d; exact queries_read m c t _ d
  · funext i d; exact keys_read m c t i d
  · funext e d; exact half₁_read m c t e d
  · funext e d; exact half₂_read m c t e d
  · funext d; exact bias_read m c t d

/-- An index of the array is in point `t`'s block iff each coordinate is in the block's range on its axis. -/
theorem output_mem_blk (t : Fin cfg0.N) (i : S8x2048x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v8_1).slice (win0_6.rect t)).set ↔ _
  rw [View.set_slice_whole, Rect.mem_set_unit]
  exact Iff.rfl

/-- Every entry of the array is in some point's block: entry `(b, o, d)` in that of the point `(b, o / 512)`. -/
theorem output_cover (i : S8x2048x512.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  obtain ⟨-, -, -, -, -, -, -, -, -, -, -, -, -, -, e0, e1, e2⟩ := idx_facts t
  have q0 : win0_5.index t (0 : Fin 3) = (i 0).val := congrFun ht 0
  have q1 : win0_5.index t (1 : Fin 3) = (i 1).val / 512 := congrFun ht 1
  refine ⟨t, flush0_6 t, ?_⟩
  rw [output_mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-- THE OUTPUT ARRAY AFTER THE RUN is the specification's output of the four arguments. -/
theorem output_final (c : Dev nD) :
    (dats m 0 c).arrAt 6 cfg0.N = output (argX m c) (argC m c) (argW m c) (argB m c) :=
  (dats m 0 c).arrAt_eq_of_cover 6 (output (argX m c) (argC m c) (argW m c) (argB m c)) (fun t _ => output_flushed m c t) output_cover

end Cert.KernelIdeal.Hand

end
-- ==== Proof.RefWeights.lean ====
/-
  The reference's attention weights are the specification's.

  The reference scores every query row of every sequence against that sequence's rows with one batched product,
  reduces the scores along the last axis by `max` from −∞ (and takes `max` with −∞ once more, which changes nothing),
  subtracts, exponentiates, sums along the last axis from `0`, and divides. Read at `(b, o, i)` each stage depends on
  row `o` of sequence `b` of the first argument and on the rows of sequence `b` of the second only, and is the
  corresponding stage of the softmax of one row: the product is `Attn.score`, the maximum `Attn.top`, the
  exponential `Attn.num`, the quotient `Attn.weight`.
-/
import proofs.«162151_j42949672961258_2_alg».proof.Proof.Gen.ReferenceIdeal.Read
import proofs.«162151_j42949672961258_2_alg».proof.Proof.Attention

noncomputable section

open scoped BigOperators

namespace Cert.ReferenceIdeal.Hand

open Cert.ReferenceIdeal Cert.ReferenceIdeal.Read Cert.ReferenceIdeal.Facts₀ Cert.Attn
open Idealize.ShloMosaic Idealize.ShloMosaic.ValueIdx

variable (x0 x1 : (⟨S8x2048x512, .f32⟩ : BufTy).Contents (Elt Ideal))

/-- The scores at `(b, o, i)`: the inner product of row `o` with row `i`, both of sequence `b`. -/
theorem v0_apply (b : Fin 8) (o i : Fin 2048) :
    val_main_v0 (F := Ideal) x0 x1 (ix3 b o i) = score (row x0 b o) (rows x1 b) i := by
  rw [val_main_v0_apply]
  refine Finset.sum_congr rfl fun k _ => ?_
  have el : lidx_main_v0 (ix3 b o i) k = ix3 b o k := funext fun a => Fin.ext (by
    match a with | ⟨0, _⟩ => rfl | ⟨1, _⟩ => rfl | ⟨2, _⟩ => rfl)
  have er : ridx_main_v0 (ix3 b o i) k = ix3 b i k := funext fun a => Fin.ext (by
    match a with | ⟨0, _⟩ => rfl | ⟨1, _⟩ => rfl | ⟨2, _⟩ => rfl)
  rw [el, er]; rfl

/-- Entry `(b, o)` of the reduced shape with coordinate `k` put back on the last axis is `(b, o, k)`. -/
theorem lift_last (h : S8x2048x2048.Reduces [2] S8x2048) (b : Fin 8) (o : Fin 2048) (k : Fin (S8x2048x2048.size 2)) :
    h.lift (ix2 b o) k = ix3 b o (⟨k.val, k.isLt⟩ : Fin 2048) := by
  funext c; apply Fin.ext
  fin_cases c <;> rfl

/-- The row maxima at `(b, o)`: the largest score of that row. -/
theorem v1_apply (b : Fin 8) (o : Fin 2048) :
    val_main_v1 (F := Ideal) x0 x1 (ix2 b o) = top (score (row x0 b o) (rows x1 b)) := by
  have h : S8x2048x2048.Reduces [2] S8x2048 := by decide
  unfold val_main_v1
  refine (Host.reduce_eq_fold_single (FloatOps.maximumf (F := Ideal) (φ := .f32)) (val_main_v0 (F := Ideal) x0 x1) (val_main_cst (F := Ideal))
    reducesTo_S8x2048x2048_S8x2048_d2 h h_S_ (ix2 b o)).trans ?_
  have hf : (val_main_v0 (F := Ideal) x0 x1 ∘ h.lift (ix2 b o)) = fun k : Fin 2048 => score (row x0 b o) (rows x1 b) k :=
    funext fun k => (congrArg (val_main_v0 (F := Ideal) x0 x1) (lift_last h b o k)).trans (v0_apply x0 x1 b o _)
  exact congrArg (fun f => Finset.fold max negInf f (Finset.univ : Finset (Fin 2048))) hf

/-- The maxima after the second `max` with −∞, spread over the scores' shape: at `(b, o, i)` still the largest score
    of row `(b, o)`. -/
theorem v5_apply (b : Fin 8) (o i : Fin 2048) :
    val_main_v5 (F := Ideal) x0 x1 (ix3 b o i) = top (score (row x0 b o) (rows x1 b)) := by
  rw [val_main_v5_apply, val_main_v4_apply]
  have e : idx_main_v4 (idx_main_v5 (ix3 b o i)) = ix2 b o := funext fun a => Fin.ext (by
    match a with | ⟨0, _⟩ => rfl | ⟨1, _⟩ => rfl)
  rw [e, val_main_v3_apply, val_main_v2_apply, val_main_cst_0_apply, v1_apply]
  exact max_negInf _

/-- The exponentials at `(b, o, i)`. -/
theorem v7_apply (b : Fin 8) (o i : Fin 2048) :
    val_main_v7 (F := Ideal) x0 x1 (ix3 b o i) = num (score (row x0 b o) (rows x1 b)) i := by
  rw [val_main_v7_apply, val_main_v6_apply, v0_apply, v5_apply]
  rfl

/-- Their sums, spread over the scores' shape: at `(b, o, i)` the sum of row `(b, o)`. -/
theorem v10_apply (b : Fin 8) (o i : Fin 2048) :
    val_main_v10 (F := Ideal) x0 x1 (ix3 b o i) = ∑ k : Fin 2048, num (score (row x0 b o) (rows x1 b)) k := by
  rw [val_main_v10_apply, val_main_v9_apply]
  have e : idx_main_v9 (idx_main_v10 (ix3 b o i)) = ix2 b o := funext fun a => Fin.ext (by
    match a with | ⟨0, _⟩ => rfl | ⟨1, _⟩ => rfl)
  rw [e, val_main_v8_apply, val_main_cst_1_apply]
  show Ideal.ofBits .f32 0x00000000#32 + _ = _
  rw [Ideal.ofBits_zero_f32, zero_add]
  refine Finset.sum_congr rfl fun k _ => ?_
  have e8 : idx_main_v8 (ix2 b o) k = ix3 b o k := funext fun a => Fin.ext (by
    match a with | ⟨0, _⟩ => rfl | ⟨1, _⟩ => rfl | ⟨2, _⟩ => rfl)
  rw [e8, v7_apply]

/-- THE REFERENCE'S WEIGHTS ARE THE SPECIFICATION'S. -/
theorem v11_eq : val_main_v11 (F := Ideal) x0 x1 = weights x0 x1 := by
  funext j
  obtain ⟨b, o, i, rfl⟩ : ∃ (b : Fin 8) (o i : Fin 2048), j = ix3 b o i := ⟨j 0, j 1, j 2, eq_ix3 j⟩
  rw [val_main_v11_apply, v7_apply, v10_apply]
  rfl

end Cert.ReferenceIdeal.Hand

end
-- ==== Proof.RefOutput.lean ====
/-
  The reference's output is the specification's.

  The reference mixes each sequence's rows by the weights with one batched product, joins the mixture with the query
  row into a row of length 1024, multiplies that row into the layer's `512 × 1024` matrix along its columns, adds the
  bias spread over sequences and rows, and takes `tanh`. At `(b, o, d)` the joined row has the mixture at its first
  512 places and the query row at its last 512, so the one sum over 1024 columns is the sum over the first half
  against the mixture plus the sum over the second half against the query row (`Attn.joined_eq_logit`).
-/
import proofs.«162151_j42949672961258_2_alg».proof.Proof.RefWeights

noncomputable section

open scoped BigOperators

namespace Cert.ReferenceIdeal.Hand

open Cert.ReferenceIdeal Cert.ReferenceIdeal.Read Cert.ReferenceIdeal.Facts₀ Cert.Attn
open Idealize.ShloMosaic Idealize.ShloMosaic.ValueIdx

variable (x0 x1 : (⟨S8x2048x512, .f32⟩ : BufTy).Contents (Elt Ideal))
variable (x2 : (⟨S512x1024, .f32⟩ : BufTy).Contents (Elt Ideal)) (x3 : (⟨S512, .f32⟩ : BufTy).Contents (Elt Ideal))

/-- The mixture at `(b, o, d)`. -/
theorem v12_apply (b : Fin 8) (o : Fin 2048) (d : Fin 512) :
    val_main_v12 (F := Ideal) x0 x1 (ix3 b o d) = mix (row x0 b o) (rows x1 b) d := by
  rw [val_main_v12_apply, v11_eq]
  refine Finset.sum_congr rfl fun k _ => ?_
  have el : lidx_main_v12 (ix3 b o d) k = ix3 b o k := funext fun a => Fin.ext (by
    match a with | ⟨0, _⟩ => rfl | ⟨1, _⟩ => rfl | ⟨2, _⟩ => rfl)
  have er : ridx_main_v12 (ix3 b o d) k = ix3 b k d := funext fun a => Fin.ext (by
    match a with | ⟨0, _⟩ => rfl | ⟨1, _⟩ => rfl | ⟨2, _⟩ => rfl)
  rw [el, er]; rfl

/-- The joined row has the mixture at its first 512 places. -/
theorem v13_lo (b : Fin 8) (o : Fin 2048) (e : Fin 512) :
    val_main_v13 (F := Ideal) x0 x1 (ix3 b o (lo e)) = mix (row x0 b o) (rows x1 b) e := by
  unfold val_main_v13
  refine (concatenate_pair_apply_left _ _ _ concatenates_S8x2048x512_S8x2048x512_S8x2048x1024_d2 (ix3 b o (lo e)) rfl
    (ix3 b o e) (fun a => by match a with | ⟨0, _⟩ => rfl | ⟨1, _⟩ => rfl | ⟨2, _⟩ => rfl)).trans ?_
  exact v12_apply x0 x1 b o e

/-- The joined row has the query row at its last 512 places. -/
theorem v13_hi (b : Fin 8) (o : Fin 2048) (e : Fin 512) :
    val_main_v13 (F := Ideal) x0 x1 (ix3 b o (hi e)) = row x0 b o e := by
  unfold val_main_v13
  exact concatenate_pair_apply_right _ _ _ concatenates_S8x2048x512_S8x2048x512_S8x2048x1024_d2 (ix3 b o (hi e)) rfl rfl
    (ix3 b o e) (fun a ha => by
      match a with
      | ⟨0, _⟩ => rfl
      | ⟨1, _⟩ => rfl
      | ⟨2, _⟩ => exact absurd (Fin.ext rfl) ha)
    (by show e.val + 512 = 512 + e.val; omega)

/-- The layer before `tanh` at `(b, o, d)`. -/
theorem v17_apply (b : Fin 8) (o : Fin 2048) (d : Fin 512) :
    val_main_v17 (F := Ideal) x0 x1 x2 x3 (ix3 b o d)
      = logit (row x0 b o) (rows x1 b) (half₁ x2) (half₂ x2) (entries x3) d := by
  rw [val_main_v17_apply, val_main_v14_apply, val_main_v16_apply, val_main_v15_apply]
  have e3 : idx_main_v15 (idx_main_v16 (ix3 b o d)) = ix1 d := funext fun a => Fin.ext (by
    match a with | ⟨0, _⟩ => rfl)
  rw [e3]
  have hs : ∀ k : Fin 1024, val_main_v13 (F := Ideal) x0 x1 (lidx_main_v14 (ix3 b o d) k) * x2 (ridx_main_v14 (ix3 b o d) k)
      = (fun e => val_main_v13 (F := Ideal) x0 x1 (ix3 b o e)) k * x2 (ix2 d k) := fun k => by
    have el : lidx_main_v14 (ix3 b o d) k = ix3 b o k := funext fun a => Fin.ext (by
      match a with | ⟨0, _⟩ => rfl | ⟨1, _⟩ => rfl | ⟨2, _⟩ => rfl)
    have er : ridx_main_v14 (ix3 b o d) k = ix2 d k := funext fun a => Fin.ext (by
      match a with | ⟨0, _⟩ => rfl | ⟨1, _⟩ => rfl)
    rw [el, er]
  rw [Finset.sum_congr rfl fun k _ => hs k]
  exact joined_eq_logit (row x0 b o) (rows x1 b) x2 x3 d (fun e => val_main_v13 (F := Ideal) x0 x1 (ix3 b o e))
    (v13_lo x0 x1 b o) (v13_hi x0 x1 b o)

/-- THE REFERENCE'S OUTPUT IS THE SPECIFICATION'S. -/
theorem v18_eq : val_main_v18 (F := Ideal) x0 x1 x2 x3 = output x0 x1 x2 x3 := by
  funext j
  obtain ⟨b, o, d, rfl⟩ : ∃ (b : Fin 8) (o : Fin 2048) (d : Fin 512), j = ix3 b o d := ⟨j 0, j 1, j 2, eq_ix3 j⟩
  rw [val_main_v18_apply, v17_apply]
  rfl

end Cert.ReferenceIdeal.Hand

end
-- ==== Proof.lean ====
/-
  Softmax attention followed by a linear layer and `tanh`, as a fused kernel over a grid of 8 sequences × 4 blocks of 512
  query rows, against the same computation written with whole-array operations.

  Both programs compute, for every query row `o` of every sequence `b`:
  the scores of that row against the 2048 rows of sequence `b` of the second argument (inner products), their softmax
  (shift by the maximum, exponentiate, divide by the sum) — the FIRST result is these weights —, the mixture of those
  2048 rows by the weights, and `tanh` of a linear layer applied to the mixture joined with the query row, plus a bias
  — the SECOND result.

  They differ in two ways, neither of which changes a value on the extended reals.
  * The kernel rounds its matrix operands to sixteen bits; there the rounding is the identity.
  * The reference multiplies the joined row of length 1024 into the whole `512 × 1024` matrix; the kernel multiplies the
    mixture into the first 512 columns and the query row into the last 512 and adds the two products. A sum over 1024
    indices is the sum over the first 512 plus the sum over the last 512 (`Attn.sum_lo_hi`); this uses only that
    addition is commutative and associative, so no finiteness of the inputs is needed.
  The reference also takes `max` of the row maxima with −∞ once more, which is the identity.

  So the argument is: one specification (`Attn.weights`, `Attn.output`: Proof/Attention.lean); the reference's two
  results are the specification (Proof/RefWeights.lean, Proof/RefOutput.lean); each grid point of the kernel writes its
  block of the specification and the blocks tile the result arrays (Proof/KernelBlock.lean, Proof/KernelInputs.lean,
  Proof/KernelWeights.lean, Proof/KernelOutput.lean). The idealized kernel is the kernel's own text read on the
  extended reals (no rewrite was applied), and every program runs to the end without touching its arguments.
-/
import proofs.«162151_j42949672961258_2_alg».proof.Defs
import proofs.«162151_j42949672961258_2_alg».proof.Proof.Gen.Kernel
import proofs.«162151_j42949672961258_2_alg».proof.Proof.Gen.Kernel.Skeleton
import proofs.«162151_j42949672961258_2_alg».proof.Proof.Gen.Kernel.Launch
import proofs.«162151_j42949672961258_2_alg».proof.Proof.Gen.Kernel.Points
import proofs.«162151_j42949672961258_2_alg».proof.Proof.Gen.Kernel.Frame
import proofs.«162151_j42949672961258_2_alg».proof.Proof.Gen.KernelIdeal
import proofs.«162151_j42949672961258_2_alg».proof.Proof.Gen.KernelIdeal.Skeleton
import proofs.«162151_j42949672961258_2_alg».proof.Proof.Gen.KernelIdeal.Launch
import proofs.«162151_j42949672961258_2_alg».proof.Proof.Gen.KernelIdeal.Points
import proofs.«162151_j42949672961258_2_alg».proof.Proof.Gen.KernelIdeal.Frame
import proofs.«162151_j42949672961258_2_alg».proof.Proof.Gen.ReferenceIdeal
import proofs.«162151_j42949672961258_2_alg».proof.Proof.Gen.KernelIdeal.Value
import proofs.«162151_j42949672961258_2_alg».proof.Proof.Gen.ReferenceIdeal.Run
import proofs.«162151_j42949672961258_2_alg».proof.Proof.Gen.ReferenceIdeal.Read
import proofs.«162151_j42949672961258_2_alg».proof.Proof.Gen.Pre_finite_inputs
import proofs.«162151_j42949672961258_2_alg».proof.Proof.KernelWeights
import proofs.«162151_j42949672961258_2_alg».proof.Proof.KernelOutput
import proofs.«162151_j42949672961258_2_alg».proof.Proof.RefOutput
import Idealize.ShloMosaic.Adequacy
import Idealize.ShloMosaic.Init

noncomputable section

namespace Cert.Proof

open Idealize.ShloMosaic Idealize.ShloMosaic.TcCoe Idealize.SL.Sem Cert.Attn

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The kernel's run on the extended reals, read: the output array ends at the specification's output of the four
    arguments, the weights array at the specification's weights of the first two, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v8_1)
          = output (Cert.KernelIdeal.Hand.argX m c) (Cert.KernelIdeal.Hand.argC m c) (Cert.KernelIdeal.Hand.argW m c) (Cert.KernelIdeal.Hand.argB m c)
        ∧ r.2.mem ((c.tc : Thread Cert.KernelIdeal.nD Cert.KernelIdeal.τ).loc Cert.KernelIdeal.main_v8_0)
          = weights (Cert.KernelIdeal.Hand.argX m c) (Cert.KernelIdeal.Hand.argC m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono
    (fun _ h c => ⟨(h c).2.1.trans (Cert.KernelIdeal.Hand.output_final m c), (h c).1.trans (Cert.KernelIdeal.Hand.weights_final m c), (h c).2.2⟩)
    (Cert.KernelIdeal.Value.run_blocks m ρ)

/-- No rewrite was applied when the kernel was read on the extended reals: nothing to preserve. -/
theorem preserves : Cert.preserves_Kernel_KernelIdeal := trivial

/-- From memories agreeing on the arguments the kernel's two result arrays (`kernel_run`) and the reference's (its
    generated run, whose two terms are the specification: `v18_eq`, `v11_eq`) are the same functions of the arguments. -/
theorem algebraic : Cert.algebraic_KernelIdeal_ReferenceIdeal := by
  intro m ρ m' ρ' _ hagree
  refine ⟨fun c => output (Cert.KernelIdeal.Hand.argX m c) (Cert.KernelIdeal.Hand.argC m c) (Cert.KernelIdeal.Hand.argW m c) (Cert.KernelIdeal.Hand.argB m c),
    fun c => weights (Cert.KernelIdeal.Hand.argX m c) (Cert.KernelIdeal.Hand.argC m c), kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v18_eq _ _ _ _).trans (Cert.ReferenceIdeal.Hand.v18_eq _ _ _ _)
  · rw [(hagree c).1, (hagree c).2.1]
    exact (Cert.ReferenceIdeal.Read.val_main_v11_eq _ _).trans (Cert.ReferenceIdeal.Hand.v11_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
